-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S128x64 .f32) (main_arg3 : FVec F S64 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S10000x64 : Shape := ⟨2, ![10000, 64]⟩
abbrev S64x64 : Shape := ⟨2, ![64, 64]⟩

abbrev nBuf : Space → Nat
  | .hbm => 57
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .f32⟩
  | .hbm, ⟨11, _⟩ => ⟨S1200000, .f32⟩
  | .hbm, ⟨12, _⟩ => ⟨S_, .f32⟩
  | .hbm, ⟨13, _⟩ => ⟨S100000, .f32⟩
  | .hbm, ⟨14, _⟩ => ⟨S1200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .f32⟩
  | .hbm, ⟨32, _⟩ => ⟨S_, .f32⟩
  | .hbm, ⟨33, _⟩ => ⟨S100000x64, .f32⟩
  | .hbm, ⟨34, _⟩ => ⟨S1200000x1, .i32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S128x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S128x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S_, .f32⟩
  | .hbm, ⟨24, _⟩ => ⟨S1200000, .f32⟩
  | .hbm, ⟨25, _⟩ => ⟨S_, .f32⟩
  | .hbm, ⟨26, _⟩ => ⟨S100000, .f32⟩
  | .hbm, ⟨27, _⟩ => ⟨S1200000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x128, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000x64, .f32⟩
  | .hbm, ⟨52, _⟩ => ⟨S_, .f32⟩
  | .hbm, ⟨53, _⟩ => ⟨S100000x64, .f32⟩
  | .hbm, ⟨54, _⟩ => ⟨S1200000x1, .i32⟩
  | .hbm, ⟨55, _⟩ => ⟨S100000x64, .f32⟩
  | .hbm, ⟨56, _⟩ => ⟨S_, .f32⟩
  | .hbm, ⟨57, _⟩ => ⟨S1200000, .f32⟩
  | .hbm, ⟨58, _⟩ => ⟨S_, .f32⟩
  | .hbm, ⟨59, _⟩ => ⟨S100000, .f32⟩
  | .hbm, ⟨60, _⟩ => ⟨S1200000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x128, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result array named.

  @main is four segments: the host operations before the first layer's region, that region, the host operations
  between the two regions, and the second layer's region. The generated frame folds the buffer contents through
  the four (`Gen.W0 … Gen.W4`) and reads only the arguments off the last boundary. Here the same launch is read at
  the result buffer as well: every weakly fair execution terminates with the result buffer at the last
  boundary's contents `Gen.W4` there, the arguments as launched.
-/
import proofs.«176330_j55490977464722_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer ends at the last boundary's contents, the arguments as
    launched. -/
theorem run_main : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.KernelHost.lean ====
/-
  The idealized kernel's host side: what the buffers hold at the entry of each region.

  Before the first region the host computes, from the edge list `e : [2, E]`, the row words `e[0]`, the column
  words `e[1]`, the reciprocal `1 / max(deg, 1)` of each node's clamped in-degree (as a column), and the neighbour
  mean of the input features: gather the features at the (wrapped) column words, scatter-add them at the row words,
  and multiply by the broadcast reciprocal degree. Between the two regions it computes the same neighbour mean of
  the first region's result. The gather and the scatter are kept as the opaque host functions they are.
-/
import proofs.«176330_j55490977464722_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.ShloMosaic.Tactic Idealize.ShloMosaic.StableHlo
open Idealize.SL.Sem

/-- The row words `e[0]` of the edge list. -/
def rowW (e : IVec S2x1200000 32) : IVec S1200000 32 :=
  shapeCast S1200000 (extractStridedSlice S1x1200000 ![0, 0] e slices_S2x1200000_S1x1200000_0_0) shapeCasts_S1x1200000_S1200000

/-- The column words `e[1]` of the edge list. -/
def colW (e : IVec S2x1200000 32) : IVec S1200000 32 :=
  shapeCast S1200000 (extractStridedSlice S1x1200000 ![1, 0] e slices_S2x1200000_S1x1200000_1_0) shapeCasts_S1x1200000_S1200000

/-- Each node's in-degree: a scatter-add of ones at the row words. -/
def degW (e : IVec S2x1200000 32) : FVec Ideal S100000 .f32 :=
  Host.scatterAdd (F := Ideal) scatter_S100000_S1200000x1_S1200000_n_0_0_1
    (broadcastInDim S100000 ![] bcast_S_S100000 (constant (F := Ideal) S_ .f32 0x00000000#32))
    (broadcastInDim S1200000x1 ![0] bcast_S1200000_S1200000x1_0 (rowW e))
    (broadcastInDim S1200000 ![] bcast_S_S1200000 (constant (F := Ideal) S_ .f32 0x3F800000#32))

/-- The reciprocal of the clamped degree, as a column. -/
def invW (e : IVec S2x1200000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal) (degW e) (broadcastInDim S100000 ![] bcast_S_S100000 (constant (F := Ideal) S_ .f32 0x3F800000#32))))

/-- The neighbour sum of a feature array: gather at the wrapped column words, scatter-add at the row words. -/
def nsum (row col : IVec S1200000 32) (feat : FVec Ideal S100000x64 .f32) :
    FVec Ideal S100000x64 .f32 :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 row)
    (Host.gather gather_S100000x64_S1200000x1_S1200000x64_1_0_n_n_0_1_164 feat
      (broadcastInDim S1200000x1 ![0] bcast_S1200000_S1200000x1_0
        (select (cmpi .slt col (broadcastInDim S1200000 ![] bcast_S_S1200000 (constantI S_ 32 0#32)))
          (addi col (broadcastInDim S1200000 ![] bcast_S_S1200000 (constantI S_ 32 100000#32))) col)))

/-- The neighbour mean as the kernel's host code computes it: the neighbour sum times the broadcast reciprocal
    degree. -/
def aggK (row col : IVec S1200000 32) (inv : FVec Ideal S100000x1 .f32)
    (feat : FVec Ideal S100000x64 .f32) : FVec Ideal S100000x64 .f32 :=
  mulf (F := Ideal) (nsum row col feat) (broadcastInDim S100000x64 ![0, 1] bcast_S100000x1_S100000x64_0_1 inv)

variable (m : (ℓ : Loc nD τ sig) → Buf (Elt Ideal) ℓ) (ρ : Dev nD → PrngReg) (c : Dev nD)

/-! ## At the first region's entry -/

theorem W1_arg0 : W1 m ρ c (Proc.devRef .tc main_arg0) = m ((c.tc : Thread nD τ).loc main_arg0) := by
  show StableHlo.after hostOps0 (W0 m ρ c) (Proc.devRef .tc main_arg0) = _
  after_results_simp

theorem W1_arg2 : W1 m ρ c (Proc.devRef .tc main_arg2) = m ((c.tc : Thread nD τ).loc main_arg2) := by
  show StableHlo.after hostOps0 (W0 m ρ c) (Proc.devRef .tc main_arg2) = _
  after_results_simp

theorem W1_arg4 : W1 m ρ c (Proc.devRef .tc main_arg4) = m ((c.tc : Thread nD τ).loc main_arg4) := by
  show StableHlo.after hostOps0 (W0 m ρ c) (Proc.devRef .tc main_arg4) = _
  after_results_simp

theorem W1_arg5 : W1 m ρ c (Proc.devRef .tc main_arg5) = m ((c.tc : Thread nD τ).loc main_arg5) := by
  show StableHlo.after hostOps0 (W0 m ρ c) (Proc.devRef .tc main_arg5) = _
  after_results_simp

theorem W1_v1 : W1 m ρ c (Proc.devRef .tc main_v1) = rowW (m ((c.tc : Thread nD τ).loc main_arg1)) := by
  show StableHlo.after hostOps0 (W0 m ρ c) (Proc.devRef .tc main_v1) = _
  after_results_simp
  rfl

theorem W1_v3 : W1 m ρ c (Proc.devRef .tc main_v3) = colW (m ((c.tc : Thread nD τ).loc main_arg1)) := by
  show StableHlo.after hostOps0 (W0 m ρ c) (Proc.devRef .tc main_v3) = _
  after_results_simp
  rfl

set_option maxHeartbeats 4000000 in
theorem W1_v12 : W1 m ρ c (Proc.devRef .tc main_v12) = invW (m ((c.tc : Thread nD τ).loc main_arg1)) := by
  show StableHlo.after hostOps0 (W0 m ρ c) (Proc.devRef .tc main_v12) = _
  after_results_simp
  rfl

set_option maxHeartbeats 4000000 in
theorem W1_v24 : W1 m ρ c (Proc.devRef .tc main_v24)
    = aggK (rowW (m ((c.tc : Thread nD τ).loc main_arg1))) (colW (m ((c.tc : Thread nD τ).loc main_arg1)))
        (invW (m ((c.tc : Thread nD τ).loc main_arg1))) (m ((c.tc : Thread nD τ).loc main_arg0)) := by
  show StableHlo.after hostOps0 (W0 m ρ c) (Proc.devRef .tc main_v24) = _
  after_results_simp
  rfl

theorem W1_v25 : W1 m ρ c (Proc.devRef .tc main_v25)
    = shapeCast S1x64 (m ((c.tc : Thread nD τ).loc main_arg3)) shapeCasts_S64_S1x64 := by
  show StableHlo.after hostOps0 (W0 m ρ c) (Proc.devRef .tc main_v25) = _
  after_results_simp
  rfl

/-! ## At the second region's entry, from the contents the first region leaves -/

theorem W3_v26 : W3 m ρ c (Proc.devRef .tc main_v26) = W2 m ρ c (Proc.devRef .tc main_v26) := by
  show StableHlo.after hostOps1 (W2 m ρ c) (Proc.devRef .tc main_v26) = _
  after_results_simp

theorem W3_arg4 : W3 m ρ c (Proc.devRef .tc main_arg4) = m ((c.tc : Thread nD τ).loc main_arg4) := by
  show StableHlo.after hostOps1 (W2 m ρ c) (Proc.devRef .tc main_arg4) = _
  after_results_simp
  exact (W2_of_ne m ρ c main_arg4 (by decide)).trans (W1_arg4 m ρ c)

theorem W3_v39 : W3 m ρ c (Proc.devRef .tc main_v39)
    = shapeCast S1x64 (m ((c.tc : Thread nD τ).loc main_arg5)) shapeCasts_S64_S1x64 := by
  show StableHlo.after hostOps1 (W2 m ρ c) (Proc.devRef .tc main_v39) = _
  after_results_simp
  rw [W2_of_ne m ρ c main_arg5 (by decide), W1_arg5]
  rfl

set_option maxHeartbeats 4000000 in
theorem W3_v38 : W3 m ρ c (Proc.devRef .tc main_v38)
    = aggK (rowW (m ((c.tc : Thread nD τ).loc main_arg1))) (colW (m ((c.tc : Thread nD τ).loc main_arg1)))
        (invW (m ((c.tc : Thread nD τ).loc main_arg1))) (W2 m ρ c (Proc.devRef .tc main_v26)) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    W1_v1, W1_v3, W1_v12]
  rfl

end Cert.KernelIdeal.HostValue

end
-- ==== Proof.Spec.lean ====
/-
  The mathematics of one GraphSAGE layer with mean aggregation, index by index, over the extended reals.

  A layer maps node features `x : [100000, 64]` and the aggregated neighbour features `a : [100000, 64]`
  to `[x, a] · W + b` with `W : [128, 64]` and `b : [64]`. Because the contraction runs over the joined
  axis of `[x, a]`, entry `(r, c)` is the sum of two contractions of length 64: the row `r` of `x` against
  the upper half of column `c` of `W` (rows `0 … 63`), plus the row `r` of `a` against the lower half
  (rows `64 … 127`), plus `b c`. The first layer is followed by `max(·, 0)`.
-/
import Idealize.ShloMosaic.PureOps.Ideal
import Idealize.ShloMosaic.Lib.ValueIdx

noncomputable section

namespace Cert.Spec

open Idealize.ShloMosaic Idealize.ShloMosaic.ValueIdx

/-- Node features: 100000 nodes, 64 channels. -/
abbrev SN : Shape := ⟨2, ![100000, 64]⟩
/-- A layer's weights: 128 input channels (the node's own 64, then the neighbours' 64), 64 output channels. -/
abbrev SW : Shape := ⟨2, ![128, 64]⟩
/-- A layer's bias. -/
abbrev SB : Shape := ⟨1, ![64]⟩

/-- Row `k` of the upper half of the weights. -/
abbrev up (k : Fin 64) : Fin 128 := ⟨k.val, by omega⟩
/-- Row `k` of the lower half of the weights. -/
abbrev low (k : Fin 64) : Fin 128 := ⟨64 + k.val, by omega⟩

/-- Entry `(r, c)` of a layer: `∑ₖ x[r,k]·W[k,c] + ∑ₖ a[r,k]·W[64+k,c] + b[c]`. -/
def linAt (x a : SN.Idx → EReal) (W : SW.Idx → EReal) (b : SB.Idx → EReal) (r : Fin 100000) (c : Fin 64) : EReal :=
  ((∑ k : Fin 64, x (ix2 r k) * W (ix2 (up k) c)) + ∑ k : Fin 64, a (ix2 r k) * W (ix2 (low k) c)) + b (ix1 c)

/-- A layer as a whole array. -/
def lin (x a : SN.Idx → EReal) (W : SW.Idx → EReal) (b : SB.Idx → EReal) : SN.Idx → EReal :=
  fun i => linAt x a W b (i 0) (i 1)

/-- `max(·, 0)`, the zero kept as the f32 word both programs print. -/
def relu (v : SN.Idx → EReal) : SN.Idx → EReal :=
  fun i => max (v i) (Ideal.ofBits .f32 0x00000000#32)

/-- A bias stored as the one-row matrix `[1, 64]`, read as the vector `[64]`. -/
def rowOf (b : (⟨2, ![1, 64]⟩ : Shape).Idx → EReal) : SB.Idx → EReal :=
  fun j => b (ix2 (0 : Fin 1) (show Fin 64 from j 0))

theorem rowOf_apply (b : (⟨2, ![1, 64]⟩ : Shape).Idx → EReal) (c : Fin 64) : rowOf b (ix1 c) = b (ix2 0 c) := rfl

theorem lin_apply (x a : SN.Idx → EReal) (W : SW.Idx → EReal) (b : SB.Idx → EReal) (r : Fin 100000) (c : Fin 64) :
    lin x a W b (ix2 r c) = linAt x a W b r c := rfl

theorem relu_apply (v : SN.Idx → EReal) (i : SN.Idx) : relu v i = max (v i) (Ideal.ofBits .f32 0x00000000#32) := rfl

/-- The contraction over the joined axis of `[x, a]` splits into the two halves: for any summand `f` on the 128
    joined channels, the sum is the sum over the first 64 plus the sum over the last 64. (Addition of extended
    reals is commutative and associative, so no finiteness is needed.) -/
theorem sum_join (f : Fin 128 → EReal) : ∑ k : Fin 128, f k = (∑ k : Fin 64, f (up k)) + ∑ k : Fin 64, f (low k) := by
  show ∑ k : Fin (64 + 64), f k = _
  rw [Fin.sum_univ_add]
  refine congrArg₂ (· + ·) (Finset.sum_congr rfl fun k _ => congrArg f (Fin.ext rfl))
    (Finset.sum_congr rfl fun k _ => congrArg f (Fin.ext rfl))

end Cert.Spec

end
-- ==== Proof.KernelSpec.lean ====
/-
  The idealized kernel's result, named: the two layers of the specification over the host's neighbour mean.
-/
import proofs.«176330_j55490977464722_1_alg».proof.Proof.KernelHost
import proofs.«176330_j55490977464722_1_alg».proof.Proof.Spec

noncomputable section

namespace Cert.KernelIdeal.KValue

open Cert.KernelIdeal Cert.KernelIdeal.HostValue Idealize.ShloMosaic

/-- The neighbour mean of a feature array, from the edge list: the neighbour sum times the broadcast reciprocal of
    the clamped degree. -/
def meanK (e : IVec S2x1200000 32) (feat : FVec Ideal S100000x64 .f32) : FVec Ideal S100000x64 .f32 :=
  aggK (rowW e) (colW e) (invW e) feat

/-- The first layer's output: `max(lin(x, mean(x), W1, b1), 0)`. -/
def hidK (x : FVec Ideal S100000x64 .f32) (e : IVec S2x1200000 32) (W1 : FVec Ideal S128x64 .f32) (b1 : FVec Ideal S64 .f32) :
    FVec Ideal S100000x64 .f32 :=
  Cert.Spec.relu (Cert.Spec.lin x (meanK e x) W1 b1)

/-- The program's result: `lin(h, mean(h), W2, b2)` of the first layer's output `h`. -/
def outK (x : FVec Ideal S100000x64 .f32) (e : IVec S2x1200000 32) (W1 : FVec Ideal S128x64 .f32) (b1 : FVec Ideal S64 .f32)
    (W2 : FVec Ideal S128x64 .f32) (b2 : FVec Ideal S64 .f32) : FVec Ideal S100000x64 .f32 :=
  Cert.Spec.lin (hidK x e W1 b1) (meanK e (hidK x e W1 b1)) W2 b2

end Cert.KernelIdeal.KValue

end
-- ==== Proof.Payload.lean ====
/-
  The arithmetic of one layer's body, entry by entry, over the extended reals.

  A grid point holds a block of 10000 rows of the node features `x` and of the aggregated features `a`, the whole
  weight matrix `W : [128, 64]` and the bias as a one-row matrix. The body multiplies the block of `x` against the upper
  64 rows of `W`, the block of `a` against the lower 64 rows, adds the two products and then the bias row repeated
  down the block. Over the extended reals a change of number format is the identity and a product accumulated into
  zero is the plain sum of products, so entry `(p, q)` of the result is
  `∑ₖ x[p,k]·W[k,q] + ∑ₖ a[p,k]·W[64+k,q] + b[0,q]`.
-/
import proofs.«176330_j55490977464722_1_alg».proof.Proof.Gen.KernelIdeal.Frame
import proofs.«176330_j55490977464722_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Idealize.ShloMosaic Idealize.ShloMosaic.ValueIdx

/-- Offsets `(0, 0)` are the zero offsets. -/
theorem hz : (![0, 0] : Fin 2 → Nat) = fun _ => 0 := funext fun a => by fin_cases a <;> rfl

/-- The left factor of a product is read at the output's row … -/
theorem lhs_row (i : S10000x64.Idx) (u : dot_S10000x64_S64x64_S10000x64_1_0_0_1_n_n.contr.Idx) :
    (dot_S10000x64_S64x64_S10000x64_1_0_0_1_n_n.lhsIdx i u 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- … and at the summation index along its columns; -/
theorem lhs_col (i : S10000x64.Idx) (u : dot_S10000x64_S64x64_S10000x64_1_0_0_1_n_n.contr.Idx) :
    (dot_S10000x64_S64x64_S10000x64_1_0_0_1_n_n.lhsIdx i u 1).val = (u ⟨0, by decide⟩).val :=
  dot_S10000x64_S64x64_S10000x64_1_0_0_1_n_n.lhsIdx_val_of_single rfl i u

/-- the right factor at the summation index along its rows … -/
theorem rhs_row (i : S10000x64.Idx) (u : dot_S10000x64_S64x64_S10000x64_1_0_0_1_n_n.contr.Idx) :
    (dot_S10000x64_S64x64_S10000x64_1_0_0_1_n_n.rhsIdx i u 0).val = (u ⟨0, by decide⟩).val :=
  dot_S10000x64_S64x64_S10000x64_1_0_0_1_n_n.rhsIdx_val_of_single rfl i u

/-- … and at the output's column. -/
theorem rhs_col (i : S10000x64.Idx) (u : dot_S10000x64_S64x64_S10000x64_1_0_0_1_n_n.contr.Idx) :
    (dot_S10000x64_S64x64_S10000x64_1_0_0_1_n_n.rhsIdx i u 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A `[10000, 64] · [64, 64]` product accumulated into zero, at entry `(p, q)`: row `p` of the left factor against
    column `q` of the right one. -/
theorem matmul_at (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The upper half of the weights, cut out as a `[64, 64]` matrix, at `(k, q)` is the weights at `(k, q)`. -/
theorem upper_at (w : S128x64.Idx → EReal) (h : S128x64.Slices ![0, 0] S64x64) (k q : Fin 64) :
    extractStridedSlice S64x64 ![0, 0] w h (ix2 k q) = w (ix2 (Cert.Spec.up k) q) :=
  slice2_axis0_apply 0 w h k q (Cert.Spec.up k) (Nat.zero_add _).symm

/-- The lower half at `(k, q)` is the weights at `(64 + k, q)`. -/
theorem lower_at (w : S128x64.Idx → EReal) (h : S128x64.Slices ![64, 0] S64x64) (k q : Fin 64) :
    extractStridedSlice S64x64 ![64, 0] w h (ix2 k q) = w (ix2 (Cert.Spec.low k) q) :=
  slice2_axis0_apply 64 w h k q (Cert.Spec.low k) rfl

/-- The sum the two layers share: at entry `(p, q)` the two contractions and the bias. -/
def affineAt (x a : S10000x64.Idx → EReal) (W : S128x64.Idx → EReal) (b : S1x64.Idx → EReal) (p : Fin 10000) (q : Fin 64) : EReal :=
  ((∑ k : Fin 64, x (ix2 p k) * W (ix2 (Cert.Spec.up k) q)) + ∑ k : Fin 64, a (ix2 p k) * W (ix2 (Cert.Spec.low k) q)) + b (ix2 0 q)

/-- The body's arithmetic before any final `max`, with the casts to the same shape already removed, at entry `(p, q)`. -/
theorem affine_at (x a : Vec Ideal S10000x64 .f32) (W : Vec Ideal S128x64 .f32) (b : Vec Ideal S1x64 .f32) (p : Fin 10000) (q : Fin 64) :
    addf (addf
        (matmul dot_S10000x64_S64x64_S10000x64_1_0_0_1_n_n none (truncf .bf16 x Gen.bitsLt_bf16_f32)
          (extractStridedSlice S64x64 ![0, 0] (truncf .bf16 W Gen.bitsLt_bf16_f32) Gen.slices_S128x64_o0_0_S64x64)
          (constant (F := Ideal) S10000x64 .f32 0x00000000#32))
        (matmul dot_S10000x64_S64x64_S10000x64_1_0_0_1_n_n none (truncf .bf16 a Gen.bitsLt_bf16_f32)
          (extractStridedSlice S64x64 ![64, 0] (truncf .bf16 W Gen.bitsLt_bf16_f32) Gen.slices_S128x64_o64_0_S64x64)
          (constant (F := Ideal) S10000x64 .f32 0x00000000#32)))
      (broadcastTo S10000x64 b Gen.broadcasts_S1x64_S10000x64) (ix2 p q)
    = affineAt x a W b p q := by
  unfold affineAt
  refine congrArg₂ (· + ·) (congrArg₂ (· + ·) ?_ ?_) (broadcastTo_1b_ab_apply b _ p q)
  · refine (matmul_at _ _ p q).trans (Finset.sum_congr rfl fun k _ => congrArg (x (ix2 p k) * ·) ?_)
    exact upper_at _ _ k q
  · refine (matmul_at _ _ p q).trans (Finset.sum_congr rfl fun k _ => congrArg (a (ix2 p k) * ·) ?_)
    exact lower_at _ _ k q

/-- When the block's row `p` of the two feature blocks is row `r` of the two feature arrays, and the block holds the whole
    weights and the whole bias row, the block's sum at `(p, q)` is the layer's entry `(r, q)`. -/
theorem affineAt_eq_linAt (x a : S10000x64.Idx → EReal) (W : S128x64.Idx → EReal) (b : S1x64.Idx → EReal)
    (X A : S100000x64.Idx → EReal) (W' : S128x64.Idx → EReal) (B : S1x64.Idx → EReal)
    (p : Fin 10000) (q : Fin 64) (r : Fin 100000)
    (hx : ∀ k : Fin 64, x (ix2 p k) = X (ix2 r k)) (ha : ∀ k : Fin 64, a (ix2 p k) = A (ix2 r k))
    (hW : W = W') (hb : b = B) :
    affineAt x a W b p q = Cert.Spec.linAt X A W' (Cert.Spec.rowOf B) r q := by
  subst hW hb
  unfold affineAt Cert.Spec.linAt
  rw [Cert.Spec.rowOf_apply]
  exact congrArg₂ (· + ·)
    (congrArg₂ (· + ·) (Finset.sum_congr rfl fun k _ => congrArg (· * W (ix2 (Cert.Spec.up k) q)) (hx k))
      (Finset.sum_congr rfl fun k _ => congrArg (· * W (ix2 (Cert.Spec.low k) q)) (ha k))) rfl

end Cert.KernelIdeal.RegionValue

end
-- ==== Proof.Region0.lean ====
/-
  The first layer's region as one array.

  The region runs the layer body at ten grid points. Point `t` is handed rows `10000·t … 10000·t + 9999` of the node
  features and of the aggregated features, the whole weight matrix and the whole bias row, and writes the same rows
  of the result. So the result array at `(r, c)` is the layer's formula at `(r, c)`: row `r` lies in the block of point
  `r / 10000`, and within a block the body's entry `(p, q)` reads only row `p` of the two feature blocks.
-/
import proofs.«176330_j55490977464722_1_alg».proof.Proof.Payload

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The first layer's body at entry `(p, q)` of a block: the shared sum, then `max(·, 0)`. -/
theorem pay0_at (x0 x1 : Vec Ideal S10000x64 .f32) (x2 : Vec Ideal S128x64 .f32) (x3 : Vec Ideal S1x64 .f32) (p : Fin 10000) (q : Fin 64) :
    Gen.k0_pay1 x0 x1 x2 x3 (ix2 p q) = max (affineAt x0 x1 x2 x3 p q) (Ideal.ofBits .f32 0x00000000#32) := by
  unfold Gen.k0_pay1
  simp only [shapeCast_self]
  exact congrArg₂ max (affine_at x0 x1 x2 x3 p q) rfl

/-- The printed index maps over the ten points: the three row-blocked windows sit at block `(t, 0)`, the weights and the
    bias at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `(p, k)` of point `t`'s block of the node features is entry `(10000·t + p, k)` of the array; -/
theorem emb0_0 (t : Fin cfg0.N) (p : Fin 10000) (k : Fin 64) (r : Fin 100000) (hr : r.val = t.val * 10000 + p.val) :
    ((cfg0.win 0).blk t).view.emb (ix2 p k) = (ix2 r k : S100000x64.Idx) := by
  obtain ⟨e0, e1, -⟩ := idx0 t
  funext a; apply Fin.ext
  match a with
  | ⟨0, _⟩ => show win0_0.index t (0 : Fin 2) * 10000 + 1 * p.val = r.val; omega
  | ⟨1, _⟩ => show win0_0.index t (1 : Fin 2) * 64 + 1 * k.val = k.val; omega

/-- the same for the aggregated features … -/
theorem emb0_1 (t : Fin cfg0.N) (p : Fin 10000) (k : Fin 64) (r : Fin 100000) (hr : r.val = t.val * 10000 + p.val) :
    ((cfg0.win 1).blk t).view.emb (ix2 p k) = (ix2 r k : S100000x64.Idx) := by
  obtain ⟨-, -, e0, e1, -⟩ := idx0 t
  funext a; apply Fin.ext
  match a with
  | ⟨0, _⟩ => show win0_1.index t (0 : Fin 2) * 10000 + 1 * p.val = r.val; omega
  | ⟨1, _⟩ => show win0_1.index t (1 : Fin 2) * 64 + 1 * k.val = k.val; omega

/-- … and for the result. -/
theorem emb0_4 (t : Fin cfg0.N) (p : Fin 10000) (k : Fin 64) (r : Fin 100000) (hr : r.val = t.val * 10000 + p.val) :
    ((cfg0.win 4).blk t).view.emb (ix2 p k) = (ix2 r k : S100000x64.Idx) := by
  obtain ⟨-, -, -, -, -, -, -, -, e0, e1⟩ := idx0 t
  funext a; apply Fin.ext
  match a with
  | ⟨0, _⟩ => show win0_4.index t (0 : Fin 2) * 10000 + 1 * p.val = r.val; omega
  | ⟨1, _⟩ => show win0_4.index t (1 : Fin 2) * 64 + 1 * k.val = k.val; omega

/-- Every point's block of the weights is the whole matrix, entry for entry; -/
theorem emb0_2 (t : Fin cfg0.N) (y : S128x64.Idx) : ((cfg0.win 2).blk t).view.emb y = y := by
  obtain ⟨-, -, -, -, e0, e1, -⟩ := idx0 t
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- and every point's block of the bias is the whole row. -/
theorem emb0_3 (t : Fin cfg0.N) (y : S1x64.Idx) : ((cfg0.win 3).blk t).view.emb y = y := by
  obtain ⟨-, -, -, -, -, -, e0, e1, -⟩ := idx0 t
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

section
variable (V : (c : Dev nD) → (b : Ref sig .tc) → Buf (Elt Ideal) ((c : Thread nD τ).loc b))

/-- Row `p` of point `t`'s block of the node features is row `10000·t + p` of the array as the region finds it; -/
theorem feat0_0 (c : Dev nD) (t : Fin cfg0.N) (p : Fin 10000) (k : Fin 64) (r : Fin 100000) (hr : r.val = t.val * 10000 + p.val) :
    (Gen.iblk0 V c 0 t : S10000x64.Idx → EReal) (ix2 p k) = (V c main_arg0 : S100000x64.Idx → EReal) (ix2 r k) := by
  unfold Gen.iblk0
  exact congrArg (V c main_arg0) (emb0_0 t p k r hr)

/-- the same for the aggregated features. -/
theorem feat0_1 (c : Dev nD) (t : Fin cfg0.N) (p : Fin 10000) (k : Fin 64) (r : Fin 100000) (hr : r.val = t.val * 10000 + p.val) :
    (Gen.iblk0 V c 1 t : S10000x64.Idx → EReal) (ix2 p k) = (V c main_v24 : S100000x64.Idx → EReal) (ix2 r k) := by
  unfold Gen.iblk0
  exact congrArg (V c main_v24) (emb0_1 t p k r hr)

/-- Every point is handed the whole weight matrix … -/
theorem whole0_2 (c : Dev nD) (t : Fin cfg0.N) : (Gen.iblk0 V c 2 t : S128x64.Idx → EReal) = (V c main_arg2 : S128x64.Idx → EReal) := by
  unfold Gen.iblk0
  exact funext fun y => congrArg (V c main_arg2) (emb0_2 t y)

/-- … and the whole bias row. -/
theorem whole0_3 (c : Dev nD) (t : Fin cfg0.N) : (Gen.iblk0 V c 3 t : S1x64.Idx → EReal) = (V c main_v25 : S1x64.Idx → EReal) := by
  unfold Gen.iblk0
  exact funext fun y => congrArg (V c main_v25) (emb0_3 t y)

/-- What point `t` writes back is its block of rows of the layer's formula over the arrays as the region finds them. -/
theorem flushed0 (c : Dev nD) (t : Fin cfg0.N) :
    (Gen.dat0 (F := Ideal) V c).flushed 4 t
      = ((cfg0.win 4).blk t).view.read (Elt Ideal) (Cert.Spec.relu (Cert.Spec.lin (V c main_arg0) (V c main_v24) (V c main_arg2) (Cert.Spec.rowOf (V c main_v25)))) := by
  show (cfg0.win 4).cut (grid0.coords t) ((Gen.dat0 V c).after 4 t) = _
  rw [Gen.after0_4]
  unfold Gen.out0_4
  rw [View.canon_unit_zero hz]
  simp only [View.ld_unit_zero (S := S10000x64) hz, View.ld_unit_zero (S := S128x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  refine (pay0_at (Gen.iblk0 V c 0 t) (Gen.iblk0 V c 1 t) (Gen.iblk0 V c 2 t) (Gen.iblk0 V c 3 t) p q).trans ?_
  have ht : t.val < 10 := lt_of_lt_of_eq t.isLt Gen.N_0
  obtain ⟨r, hr⟩ : ∃ r : Fin 100000, r.val = t.val * 10000 + p.val :=
    ⟨⟨t.val * 10000 + p.val, by have := p.isLt; omega⟩, rfl⟩
  show _ = Cert.Spec.relu (Cert.Spec.lin (V c main_arg0) (V c main_v24) (V c main_arg2) (Cert.Spec.rowOf (V c main_v25)))
    (((cfg0.win 4).blk t).view.emb (ix2 p q))
  rw [emb0_4 t p q r hr, Cert.Spec.relu_apply, Cert.Spec.lin_apply]
  exact congrArg₂ max
    (affineAt_eq_linAt (Gen.iblk0 V c 0 t) (Gen.iblk0 V c 1 t) (Gen.iblk0 V c 2 t) (Gen.iblk0 V c 3 t)
      (V c main_arg0) (V c main_v24) (V c main_arg2) (V c main_v25) p q r
      (fun k => feat0_0 V c t p k r hr) (fun k => feat0_1 V c t p k r hr) (whole0_2 V c t) (whole0_3 V c t)) rfl

/-- An entry of the result array lies in point `t`'s block when its coordinates lie in the block's ranges. -/
theorem mem_blk0 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v26).slice (win0_4.rect t)).set ↔ _
  rw [View.set_slice_whole, Rect.mem_set_unit]
  exact Iff.rfl

/-- The ten blocks of rows fill the result array: row `r` lies in the block of point `r / 10000`. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from Gen.N_0]; omega⟩, rfl⟩
  obtain ⟨-, -, -, -, -, -, -, -, e0, e1⟩ := idx0 t
  refine ⟨t, Gen.flush0_4 t, ?_⟩
  rw [mem_blk0]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- THE FIRST REGION'S RESULT: after its ten points the result array holds the first layer, `max(·, 0)` of
    `[x, a] · W + b`, of the arrays as the region finds them. -/
theorem arr0 (c : Dev nD) :
    (Gen.dat0 (F := Ideal) V c).arrAt 4 cfg0.N
      = Cert.Spec.relu (Cert.Spec.lin (V c main_arg0) (V c main_v24) (V c main_arg2) (Cert.Spec.rowOf (V c main_v25))) :=
  (Gen.dat0 (F := Ideal) V c).arrAt_eq_of_cover 4
    (Cert.Spec.relu (Cert.Spec.lin (V c main_arg0) (V c main_v24) (V c main_arg2) (Cert.Spec.rowOf (V c main_v25))))
    (fun t _ => flushed0 V c t) cover0

end

end Cert.KernelIdeal.RegionValue

end
-- ==== Proof.Region1.lean ====
/-
  The second layer's region as one array.

  The region runs the layer body at ten grid points. Point `t` is handed rows `10000·t … 10000·t + 9999` of the first
  layer's result and of its aggregated neighbour features, the whole second weight matrix and the whole second bias
  row, and writes the same rows of the result. So the result array at `(r, c)` is the layer's formula at `(r, c)`: row
  `r` lies in the block of point `r / 10000`, and within a block the body's entry `(p, q)` reads only row `p` of the two
  feature blocks. The second layer has no `max(·, 0)` after it.
-/
import proofs.«176330_j55490977464722_1_alg».proof.Proof.Payload

noncomputable section

namespace Cert.KernelIdeal.RegionValue1

open Cert.KernelIdeal Cert.KernelIdeal.Gen Cert.KernelIdeal.RegionValue Idealize.ShloMosaic Idealize.ShloMosaic.ValueIdx Idealize.ShloMosaic.TcCoe Idealize.SL.Sem
open Idealize.ShloMosaic.Pipeline (Dat)

/-- The second layer's body at entry `(p, q)` of a block: the two contractions and the bias, nothing after. -/
theorem pay1_at (x0 x1 : Vec Ideal S10000x64 .f32) (x2 : Vec Ideal S128x64 .f32) (x3 : Vec Ideal S1x64 .f32) (p : Fin 10000) (q : Fin 64) :
    Gen.k1_pay1 x0 x1 x2 x3 (ix2 p q) = affineAt x0 x1 x2 x3 p q := by
  unfold Gen.k1_pay1
  simp only [shapeCast_self]
  exact affine_at x0 x1 x2 x3 p q

/-- The printed index maps over the ten points: the three row-blocked windows sit at block `(t, 0)`, the weights and the
    bias at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of point `t`'s block of the first layer's result is entry `(10000·t + p, k)` of the array; -/
theorem emb1_0 (t : Fin cfg1.N) (p : Fin 10000) (k : Fin 64) (r : Fin 100000) (hr : r.val = t.val * 10000 + p.val) :
    ((cfg1.win 0).blk t).view.emb (ix2 p k) = (ix2 r k : S100000x64.Idx) := by
  obtain ⟨e0, e1, -⟩ := idx1 t
  funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- the same for its aggregated features … -/
theorem emb1_1 (t : Fin cfg1.N) (p : Fin 10000) (k : Fin 64) (r : Fin 100000) (hr : r.val = t.val * 10000 + p.val) :
    ((cfg1.win 1).blk t).view.emb (ix2 p k) = (ix2 r k : S100000x64.Idx) := by
  obtain ⟨-, -, e0, e1, -⟩ := idx1 t
  funext a; apply Fin.ext
  match a with
  | ⟨0, _⟩ => show win1_1.index t (0 : Fin 2) * 10000 + 1 * p.val = r.val; omega
  | ⟨1, _⟩ => show win1_1.index t (1 : Fin 2) * 64 + 1 * k.val = k.val; omega

/-- … and for the result. -/
theorem emb1_4 (t : Fin cfg1.N) (p : Fin 10000) (k : Fin 64) (r : Fin 100000) (hr : r.val = t.val * 10000 + p.val) :
    ((cfg1.win 4).blk t).view.emb (ix2 p k) = (ix2 r k : S100000x64.Idx) := by
  obtain ⟨-, -, -, -, -, -, -, -, e0, e1⟩ := idx1 t
  funext a; apply Fin.ext
  match a with
  | ⟨0, _⟩ => show win1_4.index t (0 : Fin 2) * 10000 + 1 * p.val = r.val; omega
  | ⟨1, _⟩ => show win1_4.index t (1 : Fin 2) * 64 + 1 * k.val = k.val; omega

/-- Every point's block of the weights is the whole matrix, entry for entry; -/
theorem emb1_2 (t : Fin cfg1.N) (y : S128x64.Idx) : ((cfg1.win 2).blk t).view.emb y = y := by
  obtain ⟨-, -, -, -, e0, e1, -⟩ := idx1 t
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- and every point's block of the bias is the whole row. -/
theorem emb1_3 (t : Fin cfg1.N) (y : S1x64.Idx) : ((cfg1.win 3).blk t).view.emb y = y := by
  obtain ⟨-, -, -, -, -, -, e0, e1, -⟩ := idx1 t
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

section
variable (V : (c : Dev nD) → (b : Ref sig .tc) → Buf (Elt Ideal) ((c : Thread nD τ).loc b))

/-- Row `p` of point `t`'s block of the first layer's result is row `10000·t + p` of the array as the region finds it; -/
theorem feat1_0 (c : Dev nD) (t : Fin cfg1.N) (p : Fin 10000) (k : Fin 64) (r : Fin 100000) (hr : r.val = t.val * 10000 + p.val) :
    (Gen.iblk1 V c 0 t : S10000x64.Idx → EReal) (ix2 p k) = (V c main_v26 : S100000x64.Idx → EReal) (ix2 r k) := by
  unfold Gen.iblk1
  exact congrArg (V c main_v26) (emb1_0 t p k r hr)

/-- the same for its aggregated features. -/
theorem feat1_1 (c : Dev nD) (t : Fin cfg1.N) (p : Fin 10000) (k : Fin 64) (r : Fin 100000) (hr : r.val = t.val * 10000 + p.val) :
    (Gen.iblk1 V c 1 t : S10000x64.Idx → EReal) (ix2 p k) = (V c main_v38 : S100000x64.Idx → EReal) (ix2 r k) := by
  unfold Gen.iblk1
  exact congrArg (V c main_v38) (emb1_1 t p k r hr)

/-- Every point is handed the whole weight matrix … -/
theorem whole1_2 (c : Dev nD) (t : Fin cfg1.N) : (Gen.iblk1 V c 2 t : S128x64.Idx → EReal) = (V c main_arg4 : S128x64.Idx → EReal) := by
  unfold Gen.iblk1
  exact funext fun y => congrArg (V c main_arg4) (emb1_2 t y)

/-- … and the whole bias row. -/
theorem whole1_3 (c : Dev nD) (t : Fin cfg1.N) : (Gen.iblk1 V c 3 t : S1x64.Idx → EReal) = (V c main_v39 : S1x64.Idx → EReal) := by
  unfold Gen.iblk1
  exact funext fun y => congrArg (V c main_v39) (emb1_3 t y)

/-- What point `t` writes back is its block of rows of the layer's formula over the arrays as the region finds them. -/
theorem flushed1 (c : Dev nD) (t : Fin cfg1.N) :
    (Gen.dat1 (F := Ideal) V c).flushed 4 t
      = ((cfg1.win 4).blk t).view.read (Elt Ideal) (Cert.Spec.lin (V c main_v26) (V c main_v38) (V c main_arg4) (Cert.Spec.rowOf (V c main_v39))) := by
  show (cfg1.win 4).cut (grid1.coords t) ((Gen.dat1 V c).after 4 t) = _
  rw [Gen.after1_4]
  unfold Gen.out1_4
  rw [View.canon_unit_zero hz]
  simp only [View.ld_unit_zero (S := S10000x64) hz, View.ld_unit_zero (S := S128x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  refine (pay1_at (Gen.iblk1 V c 0 t) (Gen.iblk1 V c 1 t) (Gen.iblk1 V c 2 t) (Gen.iblk1 V c 3 t) p q).trans ?_
  have ht : t.val < 10 := lt_of_lt_of_eq t.isLt Gen.N_1
  obtain ⟨r, hr⟩ : ∃ r : Fin 100000, r.val = t.val * 10000 + p.val :=
    ⟨⟨t.val * 10000 + p.val, by have := p.isLt; omega⟩, rfl⟩
  show _ = Cert.Spec.lin (V c main_v26) (V c main_v38) (V c main_arg4) (Cert.Spec.rowOf (V c main_v39))
    (((cfg1.win 4).blk t).view.emb (ix2 p q))
  rw [emb1_4 t p q r hr, Cert.Spec.lin_apply]
  exact affineAt_eq_linAt (Gen.iblk1 V c 0 t) (Gen.iblk1 V c 1 t) (Gen.iblk1 V c 2 t) (Gen.iblk1 V c 3 t)
    (V c main_v26) (V c main_v38) (V c main_arg4) (V c main_v39) p q r
    (fun k => feat1_0 V c t p k r hr) (fun k => feat1_1 V c t p k r hr) (whole1_2 V c t) (whole1_3 V c t)

/-- An entry of the result array lies in point `t`'s block when its coordinates lie in the block's ranges. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v40).slice (win1_4.rect t)).set ↔ _
  rw [View.set_slice_whole, Rect.mem_set_unit]
  exact Iff.rfl

/-- The ten blocks of rows fill the result array: row `r` lies in the block of point `r / 10000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from Gen.N_1]; omega⟩, rfl⟩
  obtain ⟨-, -, -, -, -, -, -, -, e0, e1⟩ := idx1 t
  refine ⟨t, Gen.flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE SECOND REGION'S RESULT: after its ten points the result array holds the second layer, `[h, a'] · W' + b'`, of
    the arrays as the region finds them. -/
theorem arr1 (c : Dev nD) :
    (Gen.dat1 (F := Ideal) V c).arrAt 4 cfg1.N
      = Cert.Spec.lin (V c main_v26) (V c main_v38) (V c main_arg4) (Cert.Spec.rowOf (V c main_v39)) :=
  (Gen.dat1 (F := Ideal) V c).arrAt_eq_of_cover 4
    (Cert.Spec.lin (V c main_v26) (V c main_v38) (V c main_arg4) (Cert.Spec.rowOf (V c main_v39)))
    (fun t _ => flushed1 V c t) cover1

end

end Cert.KernelIdeal.RegionValue1

end
-- ==== Proof.KernelValue.lean ====
/-
  The idealized kernel's result as one function of its arguments.

  The first region leaves `h = max(lin(x, mean(x), W1, b1), 0)` in its output array, where `mean(·)` is the host's
  neighbour mean (the neighbour sum times the broadcast reciprocal degree) and `lin` the layer of the
  specification; the second region leaves `lin(h, mean(h), W2, b2)`, which is the program's result. Each region's
  array is the whole-array function of its entry contents; the entry contents are the host operations' terms; the
  biases reach the regions as one-row matrices and are read back as vectors.
-/
import proofs.«176330_j55490977464722_1_alg».proof.Proof.KernelRun
import proofs.«176330_j55490977464722_1_alg».proof.Proof.KernelSpec
import proofs.«176330_j55490977464722_1_alg».proof.Proof.Region0
import proofs.«176330_j55490977464722_1_alg».proof.Proof.Region1
import proofs.«176330_j55490977464722_1_alg».proof.Proof.Spec
import Idealize.ShloMosaic.Lib.ValueLayout

set_option maxRecDepth 16384

noncomputable section

namespace Cert.KernelIdeal.KValue

open Cert.KernelIdeal Cert.KernelIdeal.Gen Cert.KernelIdeal.HostValue
open Idealize.ShloMosaic Idealize.ShloMosaic.TcCoe Idealize.ShloMosaic.ValueIdx
open Idealize.SL.Sem

/-- A bias cast to a one-row matrix and read back as a vector is the bias. -/
theorem rowOf_cast (b : FVec Ideal S64 .f32) : Cert.Spec.rowOf (shapeCast S1x64 b shapeCasts_S64_S1x64) = b := by
  funext j
  obtain ⟨q, rfl⟩ : ∃ q : Fin 64, j = ix1 q := ⟨j 0, eq_ix1 j⟩
  rw [Cert.Spec.rowOf_apply]
  exact shapeCast_a_1a_apply b shapeCasts_S64_S1x64 0 q

variable (m : (ℓ : Loc nD τ sig) → Buf (Elt Ideal) ℓ) (ρ : Dev nD → PrngReg) (c : Dev nD)

/-- What the first region leaves in its output array. -/
theorem W2_v26 : W2 m ρ c (Proc.devRef .tc main_v26)
    = hidK (m ((c.tc : Thread nD τ).loc main_arg0)) (m ((c.tc : Thread nD τ).loc main_arg1))
        (m ((c.tc : Thread nD τ).loc main_arg2)) (m ((c.tc : Thread nD τ).loc main_arg3)) := by
  refine (W2_arr m ρ c 4).trans ?_
  refine (Cert.KernelIdeal.RegionValue.arr0 (V1 m ρ) c).trans ?_
  show Cert.Spec.relu (Cert.Spec.lin (W1 m ρ c (Proc.devRef .tc main_arg0)) (W1 m ρ c (Proc.devRef .tc main_v24))
      (W1 m ρ c (Proc.devRef .tc main_arg2)) (Cert.Spec.rowOf (W1 m ρ c (Proc.devRef .tc main_v25)))) = _
  rw [W1_arg0, W1_v24, W1_arg2, W1_v25, rowOf_cast]
  rfl

/-- What the second region leaves in its output array: the result. -/
theorem W4_v40 : W4 m ρ c (Proc.devRef .tc main_v40)
    = outK (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W4_arr m ρ c 4).trans ?_
  refine (Cert.KernelIdeal.RegionValue1.arr1 (V3 m ρ) c).trans ?_
  show Cert.Spec.lin (W3 m ρ c (Proc.devRef .tc main_v26)) (W3 m ρ c (Proc.devRef .tc main_v38))
      (W3 m ρ c (Proc.devRef .tc main_arg4)) (Cert.Spec.rowOf (W3 m ρ c (Proc.devRef .tc main_v39))) = _
  rw [W3_v26, W3_v38, W3_arg4, W3_v39, rowOf_cast, W2_v26]
  rfl

/-- Every weakly fair execution of the idealized kernel terminates with its result at `outK` of the arguments,
    the arguments as launched. -/
theorem run : θ_run defs (onTc (τ := τ) (main (F := Ideal))) ⟨m, fun _ => 0, ρ⟩ (fun r => ∀ c : Dev nD,
      r.2.mem ((c.tc : Thread nD τ).loc main_v40)
        = outK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_v40 m ρ c), (h c).2⟩)
    (Cert.KernelIdeal.RunValue.run_main m ρ)

end Cert.KernelIdeal.KValue

end
-- ==== Proof.RefValue.lean ====
/-
  The reference's result, index by index.

  The reference computes, twice, the neighbour mean of a feature array (a gather of the source rows, a
  scatter-add into the target rows, a division by the clamped in-degree), joins the features and the mean along
  the channel axis, and contracts the joined 128 channels against the layer's weights, adding the bias. The
  gather and the scatter-add are never opened here: the neighbour mean stays ONE function `agg` of the edge list
  and the feature array, and the second layer's mean is the same function of the first layer's output, because
  its index and degree terms are built from the edge list by the same operations.

  What is read index by index is the dense part of a layer. Entry `(r, c)` of the contraction of the joined
  array `[f, a]` against `W` is a sum over the 128 joined channels; it splits into the first 64 channels, where
  the joined array reads `f`, and the last 64, where channel `64 + k` of the joined array is channel `k` of `a`.
  Only commutativity and associativity of the sum are used, so no entry needs to be finite.
-/
import proofs.«176330_j55490977464722_1_alg».proof.Proof.Gen.ReferenceIdeal.Read
import proofs.«176330_j55490977464722_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-- The neighbour mean of any feature array, as the reference computes it: the rows gathered at the (wrapped)
    source indices, summed into the target rows, each row divided by its in-degree clamped below by one. -/
def agg (e : (⟨S2x1200000, .i32⟩ : BufTy).Contents (Elt Ideal)) (feat : (⟨S100000x64, .f32⟩ : BufTy).Contents (Elt Ideal)) :
    (⟨S100000x64, .f32⟩ : BufTy).Contents (Elt Ideal) :=
  Host.divf (F := Ideal) (φ := .f32)
    (Host.scatterAdd (F := Ideal) (φ := .f32) scatter_S100000x64_S1200000x1_S1200000x64_1_0_0_1 (val_main_v11 (F := Ideal)) (val_main_v12 (F := Ideal) e)
      (Host.gather gather_S100000x64_S1200000x1_S1200000x64_1_0_n_n_0_1_164 feat (val_main_v9 (F := Ideal) e)))
    (val_main_v21 (F := Ideal) e)

/-- The first layer's neighbour mean is `agg` of the input features. -/
theorem v22_eq (x : (⟨S100000x64, .f32⟩ : BufTy).Contents (Elt Ideal)) (e : (⟨S2x1200000, .i32⟩ : BufTy).Contents (Elt Ideal)) :
    val_main_v22 (F := Ideal) x e = agg e x := by
  unfold val_main_v22 val_main_v13 val_main_v10 agg
  rfl

/-- The second layer's neighbour mean is `agg` of the first layer's output: its wrapped source indices, its target
    indices, its zero accumulator and its clamped degree are the first layer's terms written out again. -/
theorem v47_eq (x : (⟨S100000x64, .f32⟩ : BufTy).Contents (Elt Ideal)) (e : (⟨S2x1200000, .i32⟩ : BufTy).Contents (Elt Ideal))
    (W1 : (⟨S128x64, .f32⟩ : BufTy).Contents (Elt Ideal)) (b1 : (⟨S64, .f32⟩ : BufTy).Contents (Elt Ideal)) :
    val_main_v47 (F := Ideal) x e W1 b1 = agg e (val_main_v28 (F := Ideal) x e W1 b1) := by
  have h34 : val_main_v34 (F := Ideal) e = val_main_v9 (F := Ideal) e := rfl
  have h37 : val_main_v37 (F := Ideal) e = val_main_v12 (F := Ideal) e := rfl
  have h36 : val_main_v36 (F := Ideal) = val_main_v11 (F := Ideal) := rfl
  have h46 : val_main_v46 (F := Ideal) e = val_main_v21 (F := Ideal) e := rfl
  unfold val_main_v47 val_main_v38 val_main_v35 agg
  rw [h34, h37, h36, h46]

/-- Entry `(r, c)` of the host's contraction of a `[100000, 128]` array against the weights: the sum over the 128
    joined channels of the array's row `r` against the weights' column `c`. -/
theorem dot_at (y : FVec Ideal S100000x128 .f32) (W : FVec Ideal S128x64 .f32) (r : Fin 100000) (c : Fin 64) :
    Host.dotGeneral (F := Ideal) dot_S100000x128_S128x64_S100000x64_1_0_0_1_n_n none y W (ix2 r c)
      = ∑ k : Fin 128, y (ix2 r k) * W (ix2 k c) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r c) ((ValueIdx.contrEquiv1 dot_S100000x128_S128x64_S100000x64_1_0_0_1_n_n 128 rfl rfl).symm k) = ix2 r k := funext fun a => Fin.ext (by
    match a with
    | ⟨0, _⟩ => exact lhs_main_v24_0 _ _
    | ⟨1, _⟩ => exact (lhs_main_v24_1 _ _).trans hk)
  have er : dot_S100000x128_S128x64_S100000x64_1_0_0_1_n_n.rhsIdx (ix2 r c) ((ValueIdx.contrEquiv1 dot_S100000x128_S128x64_S100000x64_1_0_0_1_n_n 128 rfl rfl).symm k) = ix2 k c := funext fun a => Fin.ext (by
    match a with
    | ⟨0, _⟩ => exact (rhs_main_v24_0 _ _).trans hk
    | ⟨1, _⟩ => exact rhs_main_v24_1 _ _)
  rw [el, er]

/-- On the first 64 joined channels the joined array `[f, a]` reads `f`. -/
theorem cat_up (f a : FVec Ideal S100000x64 .f32) (r : Fin 100000) (k : Fin 64) :
    (concatenate S100000x128 1 [⟨S100000x64, f⟩, ⟨S100000x64, a⟩] concatenates_S100000x64_S100000x64_S100000x128_d1 : FVec Ideal S100000x128 .f32)
      (ix2 r (Cert.Spec.up k)) = f (ix2 r k) :=
  concatenate_pair_apply_left (1 : Fin S100000x128.rank) f a concatenates_S100000x64_S100000x64_S100000x128_d1
    (ix2 r (Cert.Spec.up k)) rfl (ix2 r k) (fun b => match b with
      | ⟨0, _⟩ => rfl
      | ⟨1, _⟩ => rfl)

/-- On the last 64 joined channels the joined array `[f, a]` reads `a`: joined channel `64 + k` is channel `k` of `a`. -/
theorem cat_low (f a : FVec Ideal S100000x64 .f32) (r : Fin 100000) (k : Fin 64) :
    (concatenate S100000x128 1 [⟨S100000x64, f⟩, ⟨S100000x64, a⟩] concatenates_S100000x64_S100000x64_S100000x128_d1 : FVec Ideal S100000x128 .f32)
      (ix2 r (Cert.Spec.low k)) = a (ix2 r k) :=
  concatenate_pair_apply_right (1 : Fin S100000x128.rank) f a concatenates_S100000x64_S100000x64_S100000x128_d1
    (ix2 r (Cert.Spec.low k)) rfl rfl (ix2 r k) (fun b hb => match b, hb with
      | ⟨0, _⟩, _ => rfl
      | ⟨1, _⟩, hb => (hb (Fin.ext rfl)).elim)
    (by show k.val + 64 = 64 + k.val; omega)

/-- The bias, stored as a row and repeated down the 100000 rows, read at `(r, c)` is `b c`. -/
theorem bias_at (b : FVec Ideal S64 .f32) (r : Fin 100000) (c : Fin 64) :
    (broadcastInDim S100000x64 ![0, 1] bcast_S1x64_S100000x64_0_1 (broadcastInDim S1x64 ![1] bcast_S64_S1x64_1 b) : FVec Ideal S100000x64 .f32) (ix2 r c)
      = b (ix1 c) := by
  refine (broadcastInDim_apply _ bcast_S1x64_S100000x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  exact broadcastInDim_apply _ bcast_S64_S1x64_1 b (ix2 (0 : Fin 1) c) (ix1 c) (fun a => match a with
    | ⟨0, _⟩ => by show c.val = if (64 : Nat) = 1 then 0 else c.val; rw [if_neg (by decide)])

/-- A contraction plus a bias array, at `(r, c)`. -/
theorem dot_add_at (y : FVec Ideal S100000x128 .f32) (W : FVec Ideal S128x64 .f32) (bb : FVec Ideal S100000x64 .f32) (r : Fin 100000) (c : Fin 64) :
    addf (F := Ideal) (Host.dotGeneral (F := Ideal) dot_S100000x128_S128x64_S100000x64_1_0_0_1_n_n none y W) bb (ix2 r c)
      = (∑ k : Fin 128, y (ix2 r k) * W (ix2 k c)) + bb (ix2 r c) := by
  show Host.dotGeneral (F := Ideal) dot_S100000x128_S128x64_S100000x64_1_0_0_1_n_n none y W (ix2 r c) + bb (ix2 r c) = _
  rw [dot_at]

/-- One dense layer of the reference on any two feature arrays: the contraction of the joined array `[f, a]` against
    `W`, plus the repeated bias, is the layer of the specification. The sum over the 128 joined channels is cut into
    its two halves, and each half reads its own piece of the joined array. -/
theorem layer_eq (f a : FVec Ideal S100000x64 .f32) (W : FVec Ideal S128x64 .f32) (b : FVec Ideal S64 .f32) :
    addf (F := Ideal) (Host.dotGeneral (F := Ideal) dot_S100000x128_S128x64_S100000x64_1_0_0_1_n_n none
        (concatenate S100000x128 1 [⟨S100000x64, f⟩, ⟨S100000x64, a⟩] concatenates_S100000x64_S100000x64_S100000x128_d1 : FVec Ideal S100000x128 .f32) W)
      (broadcastInDim S100000x64 ![0, 1] bcast_S1x64_S100000x64_0_1 (broadcastInDim S1x64 ![1] bcast_S64_S1x64_1 b) : FVec Ideal S100000x64 .f32)
      = Cert.Spec.lin f a W b := by
  funext i
  obtain ⟨r, c, rfl⟩ : ∃ (r : Fin 100000) (c : Fin 64), i = ix2 r c := ⟨i 0, i 1, eq_ix2 i⟩
  rw [Cert.Spec.lin_apply, dot_add_at, bias_at, Cert.Spec.sum_join]
  unfold Cert.Spec.linAt
  simp only [cat_up, cat_low]

/-- `max(·, 0)` as the reference spells it (a maximum against the repeated zero word) is the specification's. -/
theorem relu_eq (v : FVec Ideal S100000x64 .f32) :
    maximumf (F := Ideal) v (val_main_call0_v0 (F := Ideal)) = Cert.Spec.relu v := by
  funext i
  rw [Cert.Spec.relu_apply]
  show max (v i) (val_main_call0_v0 (F := Ideal) i) = _
  rw [val_main_call0_v0_apply, val_main_call0_cst_apply]
  rfl

/-- The first layer before its `max(·, 0)`. -/
theorem v27_eq (x : (⟨S100000x64, .f32⟩ : BufTy).Contents (Elt Ideal)) (e : (⟨S2x1200000, .i32⟩ : BufTy).Contents (Elt Ideal))
    (W1 : (⟨S128x64, .f32⟩ : BufTy).Contents (Elt Ideal)) (b1 : (⟨S64, .f32⟩ : BufTy).Contents (Elt Ideal)) :
    val_main_v27 (F := Ideal) x e W1 b1 = Cert.Spec.lin x (agg e x) W1 b1 :=
  (layer_eq x (val_main_v22 (F := Ideal) x e) W1 b1).trans (congrArg (fun a => Cert.Spec.lin x a W1 b1) (v22_eq x e))

/-- The first layer. -/
theorem v28_eq (x : (⟨S100000x64, .f32⟩ : BufTy).Contents (Elt Ideal)) (e : (⟨S2x1200000, .i32⟩ : BufTy).Contents (Elt Ideal))
    (W1 : (⟨S128x64, .f32⟩ : BufTy).Contents (Elt Ideal)) (b1 : (⟨S64, .f32⟩ : BufTy).Contents (Elt Ideal)) :
    val_main_v28 (F := Ideal) x e W1 b1 = Cert.Spec.relu (Cert.Spec.lin x (agg e x) W1 b1) :=
  (relu_eq (val_main_v27 (F := Ideal) x e W1 b1)).trans (congrArg Cert.Spec.relu (v27_eq x e W1 b1))

/-- The reference's result: the second layer on the first layer's output and on the neighbour mean of that output. -/
theorem result_eq (x : (⟨S100000x64, .f32⟩ : BufTy).Contents (Elt Ideal)) (e : (⟨S2x1200000, .i32⟩ : BufTy).Contents (Elt Ideal))
    (W1 : (⟨S128x64, .f32⟩ : BufTy).Contents (Elt Ideal)) (b1 : (⟨S64, .f32⟩ : BufTy).Contents (Elt Ideal))
    (W2 : (⟨S128x64, .f32⟩ : BufTy).Contents (Elt Ideal)) (b2 : (⟨S64, .f32⟩ : BufTy).Contents (Elt Ideal)) :
    val_main_v52 (F := Ideal) x e W1 b1 W2 b2
      = Cert.Spec.lin (Cert.Spec.relu (Cert.Spec.lin x (agg e x) W1 b1)) (agg e (Cert.Spec.relu (Cert.Spec.lin x (agg e x) W1 b1))) W2 b2 := by
  refine (layer_eq (val_main_v28 (F := Ideal) x e W1 b1) (val_main_v47 (F := Ideal) x e W1 b1) W2 b2).trans ?_
  rw [v47_eq, v28_eq]

end Cert.ReferenceIdeal.RefValue

end
-- ==== Proof.LibIdealLits.lean ====
import Idealize.ShloMosaic.PureOps.Ideal
import Idealize.ShloMosaic.PureOps.Ideal.Laws

/-!
# Three float literals at the ideal instance

The binary32 patterns of 1, of 16 and of minus infinity denote the extended reals 1, 16 and ⊥.
-/

namespace Cert.StepLaw

open Idealize.ShloMosaic

/-- The binary32 pattern of 1.0 denotes the real number 1. -/
theorem ofBits_one_f32 : Ideal.ofBits .f32 0x3F800000#32 = ((1 : ℝ) : EReal) := by
  simp [Ideal.ofBits, Ideal.ieee]
  norm_num
  rw [← EReal.coe_mul, ← EReal.coe_one]
  congr 1
  norm_num

/-- The binary32 pattern of 16.0 denotes the real number 16. -/
theorem ofBits_sixteen_f32 : Ideal.ofBits .f32 0x41800000#32 = ((16 : ℝ) : EReal) := by
  simp [Ideal.ofBits, Ideal.ieee]
  norm_num
  rw [← EReal.coe_mul]
  congr 1
  norm_num

/-- The binary32 pattern of minus infinity denotes ⊥. -/
theorem ofBits_neginf_f32 : Ideal.ofBits .f32 0xFF800000#32 = (⊥ : EReal) := by
  simp [Ideal.ofBits, Ideal.ieee]

end Cert.StepLaw
-- ==== Proof.LibMeanDiv.lean ====
/-
  A mean written two ways: the sum times the reciprocal of a clamped count, and the sum over the clamped count.

  For per-row sums `s : [N, C]` and per-row counts `deg : [N]`, one program multiplies `s` by the reciprocal
  `1 / d` of the clamped count `d = max(deg, 1)` (broadcast as a column, then across the `C` channels), another
  divides `s` by the broadcast `d`. On the extended reals division by `d ≠ 0` IS multiplication by `d⁻¹`, at the
  infinities too, and `1 / d = 1 · d⁻¹ = d⁻¹`; so the two agree wherever `d ≠ 0`, and `d ≥ 1 > 0` everywhere.
  No finiteness of `s` or of `deg` is needed.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import proofs.«176330_j55490977464722_1_alg».proof.Proof.LibIdealLits

noncomputable section

namespace Cert.LibMeanDiv

open Idealize.ShloMosaic Idealize.ShloMosaic.ValueIdx

/-- `s · (1 / d) = s / d` on the extended reals, for `d ≠ 0`. -/
theorem mul_one_div (s d : EReal) (hd : d ≠ 0) : s * Ideal.div 1 d = Ideal.div s d := by
  unfold Ideal.div
  rw [if_neg hd, if_neg hd, one_mul]

/-- A maximum against the f32 word of `1.0` is not zero. -/
theorem max_one_ne_zero (a : EReal) : max a (Ideal.ofBits .f32 0x3F800000#32) ≠ 0 := by
  have h1 : (0 : EReal) < Ideal.ofBits .f32 0x3F800000#32 := by
    rw [Cert.StepLaw.ofBits_one_f32]; exact_mod_cast one_pos
  exact ne_of_gt (lt_max_of_lt_right h1)

section
variable {N C : Nat}

/-- A per-row value broadcast as a column and then across the `C` channels reads, at `(r, q)`, the row's value. -/
theorem bcast_row (h1 : (⟨1, ![N]⟩ : Shape).BroadcastsInDim ⟨2, ![N, 1]⟩ ![0])
    (h2 : (⟨2, ![N, 1]⟩ : Shape).BroadcastsInDim ⟨2, ![N, C]⟩ ![0, 1]) {α : Type} (v : (⟨1, ![N]⟩ : Shape).Idx → α)
    (r : Fin N) (q : Fin C) :
    broadcastInDim ⟨2, ![N, C]⟩ ![0, 1] h2 (broadcastInDim ⟨2, ![N, 1]⟩ ![0] h1 v) (ix2 r q) = v (ix1 r) := by
  rw [broadcastInDim_apply ![0, 1] h2 _ (ix2 r q) (ix2 r (0 : Fin 1)) (fun a => by
    match a with
    | ⟨0, _⟩ =>
      show r.val = if N = 1 then 0 else r.val
      split
      · have := r.isLt; omega
      · rfl
    | ⟨1, _⟩ => rfl)]
  exact broadcastInDim_apply ![0] h1 v (ix2 r (0 : Fin 1)) (ix1 r) (fun a => by
    match a with
    | ⟨0, _⟩ =>
      show r.val = if N = 1 then 0 else r.val
      split
      · have := r.isLt; omega
      · rfl)

/-- The sums times the broadcast reciprocal of the clamped count are the sums divided by the broadcast clamped
    count. -/
theorem mean_eq (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (s : FVec Ideal ⟨2, ![N, C]⟩ .f32) (deg : FVec Ideal ⟨1, ![N]⟩ .f32) :
    mulf (F := Ideal) s (broadcastInDim ⟨2, ![N, C]⟩ ![0, 1] h2 (broadcastInDim ⟨2, ![N, 1]⟩ ![0] h1
        (Host.divf (F := Ideal) (broadcastInDim ⟨1, ![N]⟩ ![] h0 (constant (F := Ideal) ⟨0, ![]⟩ .f32 0x3F800000#32))
          (maximumf (F := Ideal) deg (broadcastInDim ⟨1, ![N]⟩ ![] h0 (constant (F := Ideal) ⟨0, ![]⟩ .f32 0x3F800000#32))))))
      = Host.divf (F := Ideal) s (broadcastInDim ⟨2, ![N, C]⟩ ![0, 1] h2 (broadcastInDim ⟨2, ![N, 1]⟩ ![0] h1
          (maximumf (F := Ideal) deg (broadcastInDim ⟨1, ![N]⟩ ![] h0 (constant (F := Ideal) ⟨0, ![]⟩ .f32 0x3F800000#32))))) := by
  funext i
  obtain ⟨r, q, rfl⟩ : ∃ (r : Fin N) (q : Fin C), i = ix2 r q := ⟨i 0, i 1, eq_ix2 i⟩
  show s (ix2 r q) * _ = Ideal.div (s (ix2 r q)) _
  rw [bcast_row h1 h2, bcast_row h1 h2]
  show s (ix2 r q) * Ideal.div (broadcastInDim ⟨1, ![N]⟩ ![] h0 (constant (F := Ideal) ⟨0, ![]⟩ .f32 0x3F800000#32) (ix1 r))
      (max (deg (ix1 r)) (broadcastInDim ⟨1, ![N]⟩ ![] h0 (constant (F := Ideal) ⟨0, ![]⟩ .f32 0x3F800000#32) (ix1 r)))
    = Ideal.div (s (ix2 r q)) (max (deg (ix1 r)) (broadcastInDim ⟨1, ![N]⟩ ![] h0 (constant (F := Ideal) ⟨0, ![]⟩ .f32 0x3F800000#32) (ix1 r)))
  rw [broadcastInDim_scalar_apply h0]
  show s (ix2 r q) * Ideal.div (Ideal.ofBits .f32 0x3F800000#32) (max (deg (ix1 r)) (Ideal.ofBits .f32 0x3F800000#32))
    = Ideal.div (s (ix2 r q)) (max (deg (ix1 r)) (Ideal.ofBits .f32 0x3F800000#32))
  have h := mul_one_div (s (ix2 r q)) _ (max_one_ne_zero (deg (ix1 r)))
  rw [← h, Cert.StepLaw.ofBits_one_f32]
  rfl

end

end Cert.LibMeanDiv

end
-- ==== Proof.Bridge.lean ====
/-
  The two programs compute one function.

  Both results are the specification's two layers over a neighbour mean; the reference's mean divides the
  neighbour sum by the broadcast clamped degree, the kernel's multiplies it by the broadcast reciprocal. The
  neighbour sum and the clamped degree are the same host terms in both programs (the same gather, the same
  scatter-adds, the same index words), and the clamped degree is nowhere zero, so the two means agree for every
  feature array, and with them the two results.
-/
import proofs.«176330_j55490977464722_1_alg».proof.Proof.KernelSpec
import proofs.«176330_j55490977464722_1_alg».proof.Proof.RefValue
import proofs.«176330_j55490977464722_1_alg».proof.Proof.LibMeanDiv

set_option maxRecDepth 16384

noncomputable section

namespace Cert.Bridge

open Cert.KernelIdeal Cert.KernelIdeal.Facts₀ Cert.KernelIdeal.HostValue Cert.KernelIdeal.KValue Idealize.ShloMosaic

/-- The kernel's neighbour mean is the reference's, for every feature array. -/
theorem mean_bridge (e : IVec S2x1200000 32) (feat : FVec Ideal S100000x64 .f32) :
    meanK e feat = Cert.ReferenceIdeal.RefValue.agg e feat := by
  unfold meanK aggK invW
  refine (Cert.LibMeanDiv.mean_eq bcast_S_S100000 bcast_S100000_S100000x1_0 bcast_S100000x1_S100000x64_0_1
    (nsum (rowW e) (colW e) feat) (degW e)).trans ?_
  rfl

/-- The reference's result is the kernel's. -/
theorem out_bridge (x : FVec Ideal S100000x64 .f32) (e : IVec S2x1200000 32) (W1 : FVec Ideal S128x64 .f32)
    (b1 : FVec Ideal S64 .f32) (W2 : FVec Ideal S128x64 .f32) (b2 : FVec Ideal S64 .f32) :
    Cert.ReferenceIdeal.Read.val_main_v52 (F := Ideal) x e W1 b1 W2 b2 = outK x e W1 b1 W2 b2 := by
  rw [Cert.ReferenceIdeal.RefValue.result_eq]
  unfold outK hidK
  simp only [mean_bridge]

end Cert.Bridge

end
-- ==== Proof.lean ====
/-
  Two-layer GraphSAGE with mean aggregation: the Pallas program against its jnp reference, over the extended reals.

  Both programs compute, from node features `x : [100000, 64]`, an edge list `e : [2, 1200000]` and two layers'
  weights and biases, `lin(h, mean(h), W2, b2)` with `h = max(lin(x, mean(x), W1, b1), 0)`, where
  `lin(f, a, W, b) = [f, a] · W + b` and `mean(f)` is the neighbour sum of `f` (a gather at the edges' sources, a
  scatter-add at their targets) over the clamped in-degree `max(deg, 1)`.

  They differ in two places. The reference joins `[f, a]` and contracts the 128 joined channels at once; the
  kernel contracts `f` against the upper half of `W` and `a` against the lower half and adds: the same sum, split
  in two (addition of extended reals is commutative and associative, so no entry needs to be finite). The
  reference divides the neighbour sum by the clamped degree; the kernel multiplies it by the reciprocal: on the
  extended reals `s / d = s · d⁻¹` and `1 / d = d⁻¹` whenever `d ≠ 0`, and `max(deg, 1) ≥ 1`. The gather, the
  scatter-adds and the index arithmetic are the same host terms in both programs and are never opened. Changes
  of float format are the identity at the ideal instance, and the idealization rewrote nothing, so the kernel's
  idealization is its own text.

  The kernel's run: its two regions' frames are generated; the launch is read once more at the result buffer
  (KernelRun), the buffers at each region's entry are the host operations' terms (KernelHost), each region's
  output array is the layer's whole-array function of its entry contents (Region0, Region1 over Payload), and the
  result is `outK` of the arguments (KernelValue). The reference's result is the same two layers over its own mean
  (RefValue, over its generated run read one operation at a time), and the two means agree (LibMeanDiv, Bridge).
-/
import proofs.«176330_j55490977464722_1_alg».proof.Defs
import proofs.«176330_j55490977464722_1_alg».proof.Proof.Gen.Kernel
import proofs.«176330_j55490977464722_1_alg».proof.Proof.Gen.Kernel.Frame
import proofs.«176330_j55490977464722_1_alg».proof.Proof.Gen.KernelIdeal
import proofs.«176330_j55490977464722_1_alg».proof.Proof.Gen.KernelIdeal.Frame
import proofs.«176330_j55490977464722_1_alg».proof.Proof.Gen.ReferenceIdeal
import proofs.«176330_j55490977464722_1_alg».proof.Proof.Gen.ReferenceIdeal.Run
import proofs.«176330_j55490977464722_1_alg».proof.Proof.Gen.ReferenceIdeal.Read
import proofs.«176330_j55490977464722_1_alg».proof.Proof.Gen.Pre_finite_inputs
import proofs.«176330_j55490977464722_1_alg».proof.Proof.KernelValue
import proofs.«176330_j55490977464722_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the idealized kernel ends at `outK` of its arguments and the reference
    at its composed term, which is the same function of the same arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2]
  exact Cert.Bridge.out_bridge _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
